-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x64x64 : Shape := ⟨4, ![32, 128, 64, 64]⟩
abbrev S1x128x64x64 : Shape := ⟨4, ![1, 128, 64, 64]⟩
abbrev S_ : Shape := ⟨0, ![]⟩

class Facts : Prop where
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  h_S_ : 0 < S_.numel
  bcast_S_S1x128x64x64 : S_.BroadcastsInDim S1x128x64x64 (![] : Fin 0 → Fin S1x128x64x64.rank)
  reducesTo_S1x128x64x64_S_d0_1_2_3 : S1x128x64x64.ReducesTo [0, 1, 2, 3] S_

variable [Facts]

def fn {F : FTy → Type} [FloatOps F] (main_arg0 : FVec F S32x128x64x64 .f32) (main_arg1 : FVec F S1x128x64x64 .f32) : IVec S_ 1 :=
  let main_v0 : FVec F S32x128x64x64 .f32 := Host.absf main_arg0
  let main_cst : FVec F S_ .f32 := constant S_ .f32 0x7F800000#32
  let main_v1 : FVec F S32x128x64x64 .f32 := broadcastInDim S32x128x64x64 ![] bcast_S_S32x128x64x64 main_cst
  let main_v2 : IVec S32x128x64x64 1 := cmpf .olt main_v0 main_v1
  let main_c : IVec S_ 1 := constantI S_ 1 1#1
  let main_v3 : IVec S_ 1 := (fun x v => Host.reduce IntOp.andi x v reducesTo_S32x128x64x64_S_d0_1_2_3 h_S_) main_v2 main_c
  let main_v4 : FVec F S1x128x64x64 .f32 := Host.absf main_arg1
  let main_cst_0 : FVec F S_ .f32 := constant S_ .f32 0x7F800000#32
  let main_v5 : FVec F S1x128x64x64 .f32 := broadcastInDim S1x128x64x64 ![] bcast_S_S1x128x64x64 main_cst_0
  let main_v6 : IVec S1x128x64x64 1 := cmpf .olt main_v4 main_v5
  let main_c_1 : IVec S_ 1 := constantI S_ 1 1#1
  let main_v7 : IVec S_ 1 := (fun x v => Host.reduce IntOp.andi x v reducesTo_S1x128x64x64_S_d0_1_2_3 h_S_) main_v6 main_c_1
  let main_v8 : IVec S_ 1 := andi main_v3 main_v7
  main_v8
-- ==== Kernel.lean ====
abbrev S32x128x64x64 : Shape := ⟨4, ![32, 128, 64, 64]⟩
abbrev S1x128x64x64 : Shape := ⟨4, ![1, 128, 64, 64]⟩
abbrev S8x16x64x64 : Shape := ⟨4, ![8, 16, 64, 64]⟩
abbrev S1x16x64x64 : Shape := ⟨4, ![1, 16, 64, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x128x64x64, .f32⟩
  | .hbm, ⟨1, _⟩ => ⟨S1x128x64x64, .f32⟩
  | .hbm, ⟨2, _⟩ => ⟨S32x128x64x64, .f32⟩
  | .local _ .vmem, ⟨0, _⟩ => ⟨S8x16x64x64, .f32⟩
  | .local _ .vmem, ⟨1, _⟩ => ⟨S8x16x64x64, .f32⟩
  | .local _ .vmem, ⟨2, _⟩ => ⟨S1x16x64x64, .f32⟩
  | .local _ .vmem, ⟨3, _⟩ => ⟨S1x16x64x64, .f32⟩
  | .local _ .vmem, ⟨4, _⟩ => ⟨S8x16x64x64, .f32⟩
  | .local _ .vmem, ⟨5, _⟩ => ⟨S8x16x64x64, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x16x64x64_S8x16x64x64_0_0_0_0 : ∀ a, (![0, 0, 0, 0] : Fin 4 → Nat) a + S8x16x64x64.size a ≤ S8x16x64x64.size a
  h_S8x16x64x64 : 0 < S8x16x64x64.numel
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S1x16x64x64 : S1x16x64x64.ShapeCasts S1x16x64x64
  broadcasts_S1x16x64x64_S8x16x64x64 : S1x16x64x64.Broadcasts S8x16x64x64
  natLt_1_32 : 1 < 32
  iota_S8x16x64x64_d2_w32 : S8x16x64x64.Iotas .tc 32 [2]
  iota_S8x16x64x64_d3_w32 : S8x16x64x64.Iotas .tc 32 [3]
  rotates_S8x16x64x64_d2 : S8x16x64x64.Rotates 2 none
  rotates_S8x16x64x64_d3 : S8x16x64x64.Rotates 3 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x64x64.size a ≤ S32x128x64x64.size a
  hwx0_0 : ∀ i : grid0.Coords, EltTy.bits .f32 = 32 ∨ (Rect.block (s := S32x128x64x64) S8x16x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x64x64.size a ≤ S1x128x64x64.size a
  hwx0_1 : ∀ i : grid0.Coords, EltTy.bits .f32 = 32 ∨ (Rect.block (s := S1x128x64x64) S1x16x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x64x64.size a ≤ S32x128x64x64.size a
  hwx0_2 : ∀ i : grid0.Coords, EltTy.bits .f32 = 32 ∨ (Rect.block (s := S32x128x64x64) S8x16x64x64.size (cc0_transform_2 i) (hinb0_2 i)).WholeWords (EltTy.packing .f32)

variable [Facts₀]

abbrev win0_0 : Pipeline.Window sig grid0 :=
  Pipeline.Window.ofSpec (Memref.whole main_arg0) S8x16x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x16x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x64x64 : Shape := ⟨4, ![32, 128, 64, 64]⟩
abbrev S1x128x64x64 : Shape := ⟨4, ![1, 128, 64, 64]⟩
abbrev S_ : Shape := ⟨0, ![]⟩
abbrev S32x128x65x64 : Shape := ⟨4, ![32, 128, 65, 64]⟩
abbrev S32x128x64x65 : Shape := ⟨4, ![32, 128, 64, 65]⟩

abbrev nBuf : Space → Nat
  | .hbm => 41
  | .vmem => 0
  | .smem => 0
  | _ => 0

abbrev bufTy : (tb : Table) → Fin (tcTables nBuf tb) → BufTy
  | .hbm, ⟨0, _⟩ => ⟨S32x128x64x64, .f32⟩
  | .hbm, ⟨1, _⟩ => ⟨S1x128x64x64, .f32⟩
  | .hbm, ⟨2, _⟩ => ⟨S32x128x64x64, .f32⟩
  | .hbm, ⟨3, _⟩ => ⟨S_, .f32⟩
  | .hbm, ⟨4, _⟩ => ⟨S32x128x64x64, .f32⟩
  | .hbm, ⟨5, _⟩ => ⟨S32x128x64x64, .i1⟩
  | .hbm, ⟨6, _⟩ => ⟨S32x128x64x64, .f32⟩
  | .hbm, ⟨7, _⟩ => ⟨S_, .f32⟩
  | .hbm, ⟨8, _⟩ => ⟨S32x128x64x64, .f32⟩
  | .hbm, ⟨9, _⟩ => ⟨S32x128x64x64, .i1⟩
  | .hbm, ⟨10, _⟩ => ⟨S32x128x64x64, .f32⟩
  | .hbm, ⟨11, _⟩ => ⟨S32x128x64x64, .f32⟩
  | .hbm, ⟨12, _⟩ => ⟨S_, .f32⟩
  | .hbm, ⟨13, _⟩ => ⟨S32x128x64x64, .f32⟩
  | .hbm, ⟨14, _⟩ => ⟨S32x128x64x64, .f32⟩
  | .hbm, ⟨15, _⟩ => ⟨S32x128x64x64, .f32⟩
  | .hbm, ⟨16, _⟩ => ⟨S_, .f32⟩
  | .hbm, ⟨17, _⟩ => ⟨S32x128x64x64, .f32⟩
  | .hbm, ⟨18, _⟩ => ⟨S32x128x64x64, .f32⟩
  | .hbm, ⟨19, _⟩ => ⟨S32x128x64x64, .f32⟩
  | .hbm, ⟨20, _⟩ => ⟨S_, .f32⟩
  | .hbm, ⟨21, _⟩ => ⟨S_, .f32⟩
  | .hbm, ⟨22, _⟩ => ⟨S32x128x65x64, .f32⟩
  | .hbm, ⟨23, _⟩ => ⟨S32x128x64x64, .f32⟩
  | .hbm, ⟨24, _⟩ => ⟨S_, .f32⟩
  | .hbm, ⟨25, _⟩ => ⟨S_, .f32⟩
  | .hbm, ⟨26, _⟩ => ⟨S32x128x64x65, .f32⟩
  | .hbm, ⟨27, _⟩ => ⟨S32x128x64x64, .f32⟩
  | .hbm, ⟨28, _⟩ => ⟨S_, .f32⟩
  | .hbm, ⟨29, _⟩ => ⟨S_, .f32⟩
  | .hbm, ⟨30, _⟩ => ⟨S32x128x64x65, .f32⟩
  | .hbm, ⟨31, _⟩ => ⟨S32x128x64x64, .f32⟩
  | .hbm, ⟨32, _⟩ => ⟨S_, .f32⟩
  | .hbm, ⟨33, _⟩ => ⟨S_, .f32⟩
  | .hbm, ⟨34, _⟩ => ⟨S32x128x65x64, .f32⟩
  | .hbm, ⟨35, _⟩ => ⟨S32x128x64x64, .f32⟩
  | .hbm, ⟨36, _⟩ => ⟨S32x128x64x64, .f32⟩
  | .hbm, ⟨37, _⟩ => ⟨S32x128x64x64, .f32⟩
  | .hbm, ⟨38, _⟩ => ⟨S32x128x64x64, .f32⟩
  | .hbm, ⟨39, _⟩ => ⟨S32x128x64x64, .f32⟩
  | .hbm, ⟨40, _⟩ => ⟨S32x128x64x64, .f32⟩
  | _, _ => ⟨S32x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_call3_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S1x128x64x64_S32x128x64x64_0_1_2_3 : S1x128x64x64.BroadcastsInDim S32x128x64x64 (![0, 1, 2, 3] : Fin 4 → Fin S32x128x64x64.rank)
  bcast_S_S32x128x64x64 : S_.BroadcastsInDim S32x128x64x64 (![] : Fin 0 → Fin S32x128x64x64.rank)
  pads_S32x128x64x64_S32x128x65x64_000_000_100_000 : S32x128x64x64.Pads (![0, 0, 1, 0] : Fin 4 → Nat) ![0, 0, 0, 0] ![0, 0, 0, 0] S32x128x65x64
  h_S_ : 0 < S_.numel
  slices_S32x128x65x64_S32x128x64x64_0_0_0_0 : S32x128x65x64.Slices ![0, 0, 0, 0] S32x128x64x64
  pads_S32x128x64x64_S32x128x64x65_000_000_000_100 : S32x128x64x64.Pads (![0, 0, 0, 1] : Fin 4 → Nat) ![0, 0, 0, 0] ![0, 0, 0, 0] S32x128x64x65
  slices_S32x128x64x65_S32x128x64x64_0_0_0_0 : S32x128x64x65.Slices ![0, 0, 0, 0] S32x128x64x64
  pads_S32x128x64x64_S32x128x64x65_000_000_000_010 : S32x128x64x64.Pads (![0, 0, 0, 0] : Fin 4 → Nat) ![0, 0, 0, 1] ![0, 0, 0, 0] S32x128x64x65
  slices_S32x128x64x65_S32x128x64x64_0_0_0_1 : S32x128x64x65.Slices ![0, 0, 0, 1] S32x128x64x64
  pads_S32x128x64x64_S32x128x65x64_000_000_010_000 : S32x128x64x64.Pads (![0, 0, 0, 0] : Fin 4 → Nat) ![0, 0, 1, 0] ![0, 0, 0, 0] S32x128x65x64
  slices_S32x128x65x64_S32x128x64x64_0_0_1_0 : S32x128x65x64.Slices ![0, 0, 1, 0] S32x128x64x64

variable [Facts₀]

class Facts : Prop extends Facts₀ where

variable [Facts]
-- ==== Proof.StencilSpec.lean ====
/-
  The stencil both programs compute, as one function of the two argument arrays.

  For an entry x of the input [32,128,64,64] and the entry a of the parameter [1,128,64,64] at the same channel, row and
  column, the gated factor is  u = (g·p + (1 − g))·(1 − a)  with g = [a > 0.01] and p = [x > 0] read as 0 or 1.
  Within each 64×64 plane an entry's four neighbours are its factors one step up, left, right and down, and a neighbour
  that would fall outside the plane counts as 1.  The result at an index is
      ((((up · left) · u) · right) · down) · x,
  the products taken in exactly this order, so nothing beyond the order of evaluation is used and no entry need be finite.
-/
import Idealize.ShloMosaic.PureOps.Ideal
import Idealize.ShloMosaic.Lib.ValueIdx

noncomputable section

namespace Cert.Stencil

open Idealize.ShloMosaic Idealize.ShloMosaic.ValueIdx

/-- The float words the two programs share: one, the gate's threshold (the f32 nearest 0.01) and zero. -/
abbrev oneW : Ideal .f32 := FloatOps.ofBits .f32 0x3F800000#32
abbrev thrW : Ideal .f32 := FloatOps.ofBits .f32 0x3C23D70A#32
abbrev zeroW : Ideal .f32 := FloatOps.ofBits .f32 0x00000000#32

/-- The gated factor of one entry: (g·p + (1 − g))·(1 − a), g = [a > 0.01], p = [x > 0]. -/
def factor (x a : Ideal .f32) : Ideal .f32 :=
  FloatOps.mulf
    (FloatOps.addf
      (FloatOps.mulf (FloatOps.uitofp .f32 (FloatOps.cmpf .ogt a thrW)) (FloatOps.uitofp .f32 (FloatOps.cmpf .ogt x zeroW)))
      (FloatOps.subf oneW (FloatOps.uitofp .f32 (FloatOps.cmpf .ogt a thrW))))
    (FloatOps.subf oneW a)

section Plane
variable {α : Type}

/-- The neighbour one row up in a 64×64 plane, `o` on the top row. -/
def nbrUp (u : Fin 64 → Fin 64 → α) (o : α) (h w : Fin 64) : α :=
  if hh : h.val = 0 then o else u ⟨h.val - 1, by omega⟩ w

/-- The neighbour one row down, `o` on the bottom row. -/
def nbrDown (u : Fin 64 → Fin 64 → α) (o : α) (h w : Fin 64) : α :=
  if hh : h.val = 63 then o else u ⟨h.val + 1, by omega⟩ w

/-- The neighbour one column to the left, `o` on the first column. -/
def nbrLeft (u : Fin 64 → Fin 64 → α) (o : α) (h w : Fin 64) : α :=
  if hw : w.val = 0 then o else u h ⟨w.val - 1, by omega⟩

/-- The neighbour one column to the right, `o` on the last column. -/
def nbrRight (u : Fin 64 → Fin 64 → α) (o : α) (h w : Fin 64) : α :=
  if hw : w.val = 63 then o else u h ⟨w.val + 1, by omega⟩

end Plane

/-- The five-factor product of one plane at (h, w): ((((up · left) · u) · right) · down), outside neighbours 1. -/
def star (u : Fin 64 → Fin 64 → Ideal .f32) (h w : Fin 64) : Ideal .f32 :=
  FloatOps.mulf (FloatOps.mulf (FloatOps.mulf (FloatOps.mulf (nbrUp u oneW h w) (nbrLeft u oneW h w)) (u h w)) (nbrRight u oneW h w))
    (nbrDown u oneW h w)

/-- The plane of gated factors of image b, channel c. -/
def plane (X : (⟨4, ![32, 128, 64, 64]⟩ : Shape).Idx → Ideal .f32) (A : (⟨4, ![1, 128, 64, 64]⟩ : Shape).Idx → Ideal .f32)
    (b : Fin 32) (c : Fin 128) : Fin 64 → Fin 64 → Ideal .f32 :=
  fun h w => factor (X (ix4 b c h w)) (A (ix4 (0 : Fin 1) c h w))

/-- The result array: at (b, c, h, w) the five-factor product of plane (b, c) at (h, w), times the input entry. -/
def result (X : (⟨4, ![32, 128, 64, 64]⟩ : Shape).Idx → Ideal .f32) (A : (⟨4, ![1, 128, 64, 64]⟩ : Shape).Idx → Ideal .f32) :
    (⟨4, ![32, 128, 64, 64]⟩ : Shape).Idx → Ideal .f32 :=
  fun i => FloatOps.mulf (star (plane X A (i 0) (i 1)) (i 2) (i 3)) (X i)

theorem result_apply (X : (⟨4, ![32, 128, 64, 64]⟩ : Shape).Idx → Ideal .f32) (A : (⟨4, ![1, 128, 64, 64]⟩ : Shape).Idx → Ideal .f32)
    (b : Fin 32) (c : Fin 128) (h w : Fin 64) :
    result X A (ix4 b c h w) = FloatOps.mulf (star (plane X A b c) h w) (X (ix4 b c h w)) := rfl

end Cert.Stencil

end
-- ==== Proof.BlockReading.lean ====
/-
  One block of the kernel, read entry by entry.

  The kernel works on a block of 8 images by 16 channels, each a whole 64×64 plane, together with the matching 16
  channels of the parameter.  It forms the gated factor of every entry, rolls the block of factors by one step in each
  direction along the rows and along the columns, and replaces what a roll carries around the edge of a plane by 1,
  choosing by the row or column number of the entry.  Because a plane lies whole inside the block, a roll by 1 reads the
  previous row (column) and a roll by 63 the next, so on every entry the masked rolls are exactly the four neighbours of
  the specification, and the stored value is the specification's five-factor product times the entry.
-/
import proofs.«148106_j48936857371170_1_alg».proof.Proof.Gen.KernelIdeal.Skeleton
import proofs.«148106_j48936857371170_1_alg».proof.Proof.StencilSpec
import Idealize.ShloMosaic.Lib.KernelVsHost
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.Stencil

/-! ## Words -/

/-- A one-bit condition widened to a word and read signed is the bit read unsigned: 0 or 1. -/
theorem sitofp_bit (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_cast

/-- Comparing a row or column number below 64, as a word, with the word 0 or 63 is comparing the numbers. -/
theorem cmp_first : ∀ h : Fin 64, IntOp.cmpi .eq (BitVec.ofNat 32 h.val) 0#32 = if h.val = 0 then 1#1 else 0#1 := by
  decide +kernel
theorem cmp_last : ∀ h : Fin 64, IntOp.cmpi .eq (BitVec.ofNat 32 h.val) 63#32 = if h.val = 63 then 1#1 else 0#1 := by
  decide +kernel

/-! ## The gated factor of a block -/

/-- The plane of gated factors of image b, channel c of a block. -/
def blockPlane (x0 : Vec Ideal S8x16x64x64 .f32) (x1 : Vec Ideal S1x16x64x64 .f32) (b : Fin 8) (c : Fin 16) :
    Fin 64 → Fin 64 → Ideal .f32 :=
  fun h w => factor (x0 (ix4 b c h w)) (x1 (ix4 (0 : Fin 1) c h w))

/-- The parameter block copied along the 8 images reads its own entry at the channel, row and column. -/
theorem param_apply (x1 : Vec Ideal S1x16x64x64 .f32) (hc : S1x16x64x64.ShapeCasts S1x16x64x64)
    (hb : S1x16x64x64.Broadcasts S8x16x64x64) (b : Fin 8) (c : Fin 16) (h w : Fin 64) :
    broadcastTo S8x16x64x64 (shapeCast S1x16x64x64 x1 hc) hb (ix4 b c h w) = x1 (ix4 (0 : Fin 1) c h w) := by
  rw [shapeCast_self]
  exact broadcastTo_apply x1 hb (ix4 b c h w) (ix4 (0 : Fin 1) c h w) (fun a => match a with
    | ⟨0, _⟩ => by show 0 = if (1 : Nat) = 1 then 0 else b.val; rw [if_pos rfl]
    | ⟨1, _⟩ => by show c.val = if (16 : Nat) = 1 then 0 else c.val; rw [if_neg (by decide)]
    | ⟨2, _⟩ => by show h.val = if (64 : Nat) = 1 then 0 else h.val; rw [if_neg (by decide)]
    | ⟨3, _⟩ => by show w.val = if (64 : Nat) = 1 then 0 else w.val; rw [if_neg (by decide)])

/-- The block of gated factors, entry by entry. -/
theorem pay2_apply (x0 : Vec Ideal S8x16x64x64 .f32) (x1 : Vec Ideal S1x16x64x64 .f32) (b : Fin 8) (c : Fin 16) (h w : Fin 64) :
    k0_pay2 (F := Ideal) x0 x1 (ix4 b c h w) = blockPlane x0 x1 b c h w := by
  unfold k0_pay2 blockPlane factor
  dsimp only [mulf, addf, subf, sitofp, extui, cmpf, broadcast]
  rw [param_apply, sitofp_bit, sitofp_bit]

/-! ## The four masked rolls -/

section Rolls
variable {α : Type}

/-- Roll by one along the rows, 1 on the first row: the neighbour above. -/
theorem rollUp_apply (u : S8x16x64x64.Idx → α) (o : α) (hi : S8x16x64x64.Iotas .tc 32 [2]) (hr : S8x16x64x64.Rotates 2 none)
    (b : Fin 8) (c : Fin 16) (h w : Fin 64) :
    select (cmpi .eq (iota .tc S8x16x64x64 32 [2] hi) (broadcast S8x16x64x64 0#32)) (broadcast S8x16x64x64 o)
        (dynamicRotate 2 1#32 none u hr) (ix4 b c h w)
      = nbrUp (fun h' w' => u (ix4 b c h' w')) o h w := by
  show Scalar.select (IntOp.cmpi .eq (iota .tc S8x16x64x64 32 [2] hi (ix4 b c h w)) 0#32) o
      (dynamicRotate 2 1#32 none u hr (ix4 b c h w)) = _
  rw [iota_single_apply]
  show Scalar.select (IntOp.cmpi .eq (BitVec.ofNat 32 h.val) 0#32) o _ = _
  rw [cmp_first h]
  unfold nbrUp
  by_cases hh : h.val = 0
  · rw [dif_pos hh, if_pos hh, select_one]
  · rw [dif_neg hh, if_neg hh, select_zero]
    exact dynamicRotate_apply 2 1#32 u hr (ix4 b c h w) (ix4 b c ⟨h.val - 1, by omega⟩ w) (fun a => match a with
      | ⟨0, _⟩ => by show b.val = if (0 : Fin 4) = 2 then _ else b.val; rw [if_neg (by decide)]
      | ⟨1, _⟩ => by show c.val = if (1 : Fin 4) = 2 then _ else c.val; rw [if_neg (by decide)]
      | ⟨2, _⟩ => by
          show h.val - 1 = if (2 : Fin 4) = 2 then (h.val + 64 - 1 % 64) % 64 else h.val
          rw [if_pos rfl]; have := h.isLt; omega
      | ⟨3, _⟩ => by show w.val = if (3 : Fin 4) = 2 then _ else w.val; rw [if_neg (by decide)])

/-- Roll by 63 along the rows, 1 on the last row: the neighbour below. -/
theorem rollDown_apply (u : S8x16x64x64.Idx → α) (o : α) (hi : S8x16x64x64.Iotas .tc 32 [2]) (hr : S8x16x64x64.Rotates 2 none)
    (b : Fin 8) (c : Fin 16) (h w : Fin 64) :
    select (cmpi .eq (iota .tc S8x16x64x64 32 [2] hi) (broadcast S8x16x64x64 63#32)) (broadcast S8x16x64x64 o)
        (dynamicRotate 2 63#32 none u hr) (ix4 b c h w)
      = nbrDown (fun h' w' => u (ix4 b c h' w')) o h w := by
  show Scalar.select (IntOp.cmpi .eq (iota .tc S8x16x64x64 32 [2] hi (ix4 b c h w)) 63#32) o
      (dynamicRotate 2 63#32 none u hr (ix4 b c h w)) = _
  rw [iota_single_apply]
  show Scalar.select (IntOp.cmpi .eq (BitVec.ofNat 32 h.val) 63#32) o _ = _
  rw [cmp_last h]
  unfold nbrDown
  by_cases hh : h.val = 63
  · rw [dif_pos hh, if_pos hh, select_one]
  · rw [dif_neg hh, if_neg hh, select_zero]
    exact dynamicRotate_apply 2 63#32 u hr (ix4 b c h w) (ix4 b c ⟨h.val + 1, by have := h.isLt; omega⟩ w) (fun a => match a with
      | ⟨0, _⟩ => by show b.val = if (0 : Fin 4) = 2 then _ else b.val; rw [if_neg (by decide)]
      | ⟨1, _⟩ => by show c.val = if (1 : Fin 4) = 2 then _ else c.val; rw [if_neg (by decide)]
      | ⟨2, _⟩ => by
          show h.val + 1 = if (2 : Fin 4) = 2 then (h.val + 64 - 63 % 64) % 64 else h.val
          rw [if_pos rfl]; have := h.isLt; omega
      | ⟨3, _⟩ => by show w.val = if (3 : Fin 4) = 2 then _ else w.val; rw [if_neg (by decide)])

/-- Roll by one along the columns, 1 on the first column: the neighbour to the left. -/
theorem rollLeft_apply (u : S8x16x64x64.Idx → α) (o : α) (hi : S8x16x64x64.Iotas .tc 32 [3]) (hr : S8x16x64x64.Rotates 3 none)
    (b : Fin 8) (c : Fin 16) (h w : Fin 64) :
    select (cmpi .eq (iota .tc S8x16x64x64 32 [3] hi) (broadcast S8x16x64x64 0#32)) (broadcast S8x16x64x64 o)
        (dynamicRotate 3 1#32 none u hr) (ix4 b c h w)
      = nbrLeft (fun h' w' => u (ix4 b c h' w')) o h w := by
  show Scalar.select (IntOp.cmpi .eq (iota .tc S8x16x64x64 32 [3] hi (ix4 b c h w)) 0#32) o
      (dynamicRotate 3 1#32 none u hr (ix4 b c h w)) = _
  rw [iota_single_apply]
  show Scalar.select (IntOp.cmpi .eq (BitVec.ofNat 32 w.val) 0#32) o _ = _
  rw [cmp_first w]
  unfold nbrLeft
  by_cases hw : w.val = 0
  · rw [dif_pos hw, if_pos hw, select_one]
  · rw [dif_neg hw, if_neg hw, select_zero]
    exact dynamicRotate_apply 3 1#32 u hr (ix4 b c h w) (ix4 b c h ⟨w.val - 1, by omega⟩) (fun a => match a with
      | ⟨0, _⟩ => by show b.val = if (0 : Fin 4) = 3 then _ else b.val; rw [if_neg (by decide)]
      | ⟨1, _⟩ => by show c.val = if (1 : Fin 4) = 3 then _ else c.val; rw [if_neg (by decide)]
      | ⟨2, _⟩ => by show h.val = if (2 : Fin 4) = 3 then _ else h.val; rw [if_neg (by decide)]
      | ⟨3, _⟩ => by
          show w.val - 1 = if (3 : Fin 4) = 3 then (w.val + 64 - 1 % 64) % 64 else w.val
          rw [if_pos rfl]; have := w.isLt; omega)

/-- Roll by 63 along the columns, 1 on the last column: the neighbour to the right. -/
theorem rollRight_apply (u : S8x16x64x64.Idx → α) (o : α) (hi : S8x16x64x64.Iotas .tc 32 [3]) (hr : S8x16x64x64.Rotates 3 none)
    (b : Fin 8) (c : Fin 16) (h w : Fin 64) :
    select (cmpi .eq (iota .tc S8x16x64x64 32 [3] hi) (broadcast S8x16x64x64 63#32)) (broadcast S8x16x64x64 o)
        (dynamicRotate 3 63#32 none u hr) (ix4 b c h w)
      = nbrRight (fun h' w' => u (ix4 b c h' w')) o h w := by
  show Scalar.select (IntOp.cmpi .eq (iota .tc S8x16x64x64 32 [3] hi (ix4 b c h w)) 63#32) o
      (dynamicRotate 3 63#32 none u hr (ix4 b c h w)) = _
  rw [iota_single_apply]
  show Scalar.select (IntOp.cmpi .eq (BitVec.ofNat 32 w.val) 63#32) o _ = _
  rw [cmp_last w]
  unfold nbrRight
  by_cases hw : w.val = 63
  · rw [dif_pos hw, if_pos hw, select_one]
  · rw [dif_neg hw, if_neg hw, select_zero]
    exact dynamicRotate_apply 3 63#32 u hr (ix4 b c h w) (ix4 b c h ⟨w.val + 1, by have := w.isLt; omega⟩) (fun a => match a with
      | ⟨0, _⟩ => by show b.val = if (0 : Fin 4) = 3 then _ else b.val; rw [if_neg (by decide)]
      | ⟨1, _⟩ => by show c.val = if (1 : Fin 4) = 3 then _ else c.val; rw [if_neg (by decide)]
      | ⟨2, _⟩ => by show h.val = if (2 : Fin 4) = 3 then _ else h.val; rw [if_neg (by decide)]
      | ⟨3, _⟩ => by
          show w.val + 1 = if (3 : Fin 4) = 3 then (w.val + 64 - 63 % 64) % 64 else w.val
          rw [if_pos rfl]; have := w.isLt; omega)

end Rolls

/-- The block of factors as a family of planes. -/
theorem planes_eq (x0 : Vec Ideal S8x16x64x64 .f32) (x1 : Vec Ideal S1x16x64x64 .f32) (b : Fin 8) (c : Fin 16) :
    (fun h' w' => k0_pay2 (F := Ideal) x0 x1 (ix4 b c h' w')) = blockPlane x0 x1 b c :=
  funext fun h' => funext fun w' => pay2_apply x0 x1 b c h' w'

/-! ## What the block stores -/

/-- The stored block as one function of the two loaded blocks: the five-factor product of the entry's plane, times the entry. -/
def blockResult (x0 : Vec Ideal S8x16x64x64 .f32) (x1 : Vec Ideal S1x16x64x64 .f32) : S8x16x64x64.Idx → Ideal .f32 :=
  fun y => FloatOps.mulf (star (blockPlane x0 x1 (y 0) (y 1)) (y 2) (y 3)) (x0 y)

/-- The kernel's stored value is that function. -/
theorem payload_eq (x0 : Vec Ideal S8x16x64x64 .f32) (x1 : Vec Ideal S1x16x64x64 .f32) :
    k0_pay1 (F := Ideal) x0 (k0_pay2 x0 x1) (iota .tc S8x16x64x64 32 [3] iota_S8x16x64x64_d3_w32) (k0_pay3 x0 x1) (k0_pay4 x0 x1)
      (k0_pay5 x0 x1) 63#32 = blockResult x0 x1 := by
  funext y
  obtain ⟨b, c, h, w, rfl⟩ : ∃ (b : Fin 8) (c : Fin 16) (h w : Fin 64), y = ix4 b c h w := ⟨y 0, y 1, y 2, y 3, eq_ix4 y⟩
  have e3 : k0_pay3 (F := Ideal) x0 x1 (ix4 b c h w) = nbrUp (blockPlane x0 x1 b c) oneW h w :=
    (rollUp_apply (k0_pay2 x0 x1) oneW _ _ b c h w).trans (by rw [planes_eq])
  have e4 : k0_pay4 (F := Ideal) x0 x1 (ix4 b c h w) = nbrDown (blockPlane x0 x1 b c) oneW h w :=
    (rollDown_apply (k0_pay2 x0 x1) oneW _ _ b c h w).trans (by rw [planes_eq])
  have e5 : k0_pay5 (F := Ideal) x0 x1 (ix4 b c h w) = nbrLeft (blockPlane x0 x1 b c) oneW h w :=
    (rollLeft_apply (k0_pay2 x0 x1) oneW _ _ b c h w).trans (by rw [planes_eq])
  have e6 : select (cmpi .eq (iota .tc S8x16x64x64 32 [3] iota_S8x16x64x64_d3_w32) (broadcast S8x16x64x64 63#32))
        (broadcast S8x16x64x64 oneW) (dynamicRotate 3 63#32 none (k0_pay2 (F := Ideal) x0 x1) rotates_S8x16x64x64_d3) (ix4 b c h w)
      = nbrRight (blockPlane x0 x1 b c) oneW h w :=
    (rollRight_apply (k0_pay2 x0 x1) oneW _ _ b c h w).trans (by rw [planes_eq])
  show FloatOps.mulf (FloatOps.mulf (FloatOps.mulf (FloatOps.mulf (FloatOps.mulf (k0_pay3 (F := Ideal) x0 x1 (ix4 b c h w))
      (k0_pay5 (F := Ideal) x0 x1 (ix4 b c h w))) (k0_pay2 (F := Ideal) x0 x1 (ix4 b c h w)))
      (select (cmpi .eq (iota .tc S8x16x64x64 32 [3] iota_S8x16x64x64_d3_w32) (broadcast S8x16x64x64 63#32))
        (broadcast S8x16x64x64 oneW) (dynamicRotate 3 63#32 none (k0_pay2 (F := Ideal) x0 x1) rotates_S8x16x64x64_d3) (ix4 b c h w)))
      (k0_pay4 (F := Ideal) x0 x1 (ix4 b c h w))) (x0 (ix4 b c h w)) = _
  rw [e3, e4, e5, e6, pay2_apply]
  rfl

end Cert.KernelIdeal.BlockValue

end
-- ==== Proof.ReferenceReading.lean ====
/-
  The reference, read entry by entry.

  The reference forms the same gated factor of every entry and gets each neighbour by padding the whole array of factors
  with one row or column of 1 on one side of the planes and cutting the original extent back out at offset 0 (padding in
  front: the neighbour above or to the left) or at offset 1 (padding behind: the neighbour below or to the right).  An
  entry of the cut that falls in the padding is 1, every other entry is the factor one step away in the same plane.  So
  its five products are the specification's, in the same order.
-/
import proofs.«148106_j48936857371170_1_alg».proof.Proof.Gen.ReferenceIdeal.Read
import proofs.«148106_j48936857371170_1_alg».proof.Proof.StencilSpec
import Idealize.ShloMosaic.Lib.KernelVsHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Stencil

/-! ## A padded array cut back, read at an index -/

section Pads
variable {α : Type}

/-- One row of `v` padded above every plane, then rows 0 … 63 cut out: the neighbour above, `v` on the first row. -/
theorem padUp_apply (u : S32x128x64x64.Idx → α) (v : S_.Idx → α)
    (hp : S32x128x64x64.Pads (![0, 0, 1, 0] : Fin 4 → Nat) ![0, 0, 0, 0] ![0, 0, 0, 0] S32x128x65x64) (hu : 0 < S_.numel)
    (hs : S32x128x65x64.Slices ![0, 0, 0, 0] S32x128x64x64) (b : Fin 32) (c : Fin 128) (h w : Fin 64) :
    extractStridedSlice S32x128x64x64 ![0, 0, 0, 0] (pad S32x128x65x64 ![0, 0, 1, 0] ![0, 0, 0, 0] ![0, 0, 0, 0] u v hp hu) hs (ix4 b c h w)
      = nbrUp (fun h' w' => u (ix4 b c h' w')) (v (Shape.Idx.first hu)) h w := by
  rw [extractStridedSlice_apply ![0, 0, 0, 0] _ hs (ix4 b c h w) (ix4 b c (⟨h.val, by have := h.isLt; omega⟩ : Fin 65) w) (fun a => match a with
    | ⟨0, _⟩ => by show b.val = 0 + b.val; omega
    | ⟨1, _⟩ => by show c.val = 0 + c.val; omega
    | ⟨2, _⟩ => by show h.val = 0 + h.val; omega
    | ⟨3, _⟩ => by show w.val = 0 + w.val; omega)]
  unfold nbrUp
  by_cases hh : h.val = 0
  · rw [dif_pos hh]
    exact pad_apply_of_not_inside _ _ _ u v hp hu _ 2 (by
      show ¬(1 ≤ h.val ∧ (h.val - 1) % (0 + 1) = 0 ∧ (h.val - 1) / (0 + 1) < 64); omega)
  · rw [dif_neg hh]
    exact pad_apply_of_inside _ _ _ u v hp hu _ (ix4 b c ⟨h.val - 1, by omega⟩ w) (fun a => match a with
      | ⟨0, _⟩ => by show b.val = 0 + b.val * (0 + 1); omega
      | ⟨1, _⟩ => by show c.val = 0 + c.val * (0 + 1); omega
      | ⟨2, _⟩ => by show h.val = 1 + (h.val - 1) * (0 + 1); omega
      | ⟨3, _⟩ => by show w.val = 0 + w.val * (0 + 1); omega)

/-- One row of `v` padded below every plane, then rows 1 … 64 cut out: the neighbour below, `v` on the last row. -/
theorem padDown_apply (u : S32x128x64x64.Idx → α) (v : S_.Idx → α)
    (hp : S32x128x64x64.Pads (![0, 0, 0, 0] : Fin 4 → Nat) ![0, 0, 1, 0] ![0, 0, 0, 0] S32x128x65x64) (hu : 0 < S_.numel)
    (hs : S32x128x65x64.Slices ![0, 0, 1, 0] S32x128x64x64) (b : Fin 32) (c : Fin 128) (h w : Fin 64) :
    extractStridedSlice S32x128x64x64 ![0, 0, 1, 0] (pad S32x128x65x64 ![0, 0, 0, 0] ![0, 0, 1, 0] ![0, 0, 0, 0] u v hp hu) hs (ix4 b c h w)
      = nbrDown (fun h' w' => u (ix4 b c h' w')) (v (Shape.Idx.first hu)) h w := by
  rw [extractStridedSlice_apply ![0, 0, 1, 0] _ hs (ix4 b c h w) (ix4 b c (⟨1 + h.val, by have := h.isLt; omega⟩ : Fin 65) w) (fun a => match a with
    | ⟨0, _⟩ => by show b.val = 0 + b.val; omega
    | ⟨1, _⟩ => by show c.val = 0 + c.val; omega
    | ⟨2, _⟩ => by show 1 + h.val = 1 + h.val; rfl
    | ⟨3, _⟩ => by show w.val = 0 + w.val; omega)]
  unfold nbrDown
  by_cases hh : h.val = 63
  · rw [dif_pos hh]
    exact pad_apply_of_not_inside _ _ _ u v hp hu _ 2 (by
      show ¬(0 ≤ 1 + h.val ∧ (1 + h.val - 0) % (0 + 1) = 0 ∧ (1 + h.val - 0) / (0 + 1) < 64); omega)
  · rw [dif_neg hh]
    exact pad_apply_of_inside _ _ _ u v hp hu _ (ix4 b c ⟨h.val + 1, by have := h.isLt; omega⟩ w) (fun a => match a with
      | ⟨0, _⟩ => by show b.val = 0 + b.val * (0 + 1); omega
      | ⟨1, _⟩ => by show c.val = 0 + c.val * (0 + 1); omega
      | ⟨2, _⟩ => by show 1 + h.val = 0 + (h.val + 1) * (0 + 1); omega
      | ⟨3, _⟩ => by show w.val = 0 + w.val * (0 + 1); omega)

/-- One column of `v` padded before every plane, then columns 0 … 63 cut out: the neighbour to the left. -/
theorem padLeft_apply (u : S32x128x64x64.Idx → α) (v : S_.Idx → α)
    (hp : S32x128x64x64.Pads (![0, 0, 0, 1] : Fin 4 → Nat) ![0, 0, 0, 0] ![0, 0, 0, 0] S32x128x64x65) (hu : 0 < S_.numel)
    (hs : S32x128x64x65.Slices ![0, 0, 0, 0] S32x128x64x64) (b : Fin 32) (c : Fin 128) (h w : Fin 64) :
    extractStridedSlice S32x128x64x64 ![0, 0, 0, 0] (pad S32x128x64x65 ![0, 0, 0, 1] ![0, 0, 0, 0] ![0, 0, 0, 0] u v hp hu) hs (ix4 b c h w)
      = nbrLeft (fun h' w' => u (ix4 b c h' w')) (v (Shape.Idx.first hu)) h w := by
  rw [extractStridedSlice_apply ![0, 0, 0, 0] _ hs (ix4 b c h w) (ix4 b c h (⟨w.val, by have := w.isLt; omega⟩ : Fin 65)) (fun a => match a with
    | ⟨0, _⟩ => by show b.val = 0 + b.val; omega
    | ⟨1, _⟩ => by show c.val = 0 + c.val; omega
    | ⟨2, _⟩ => by show h.val = 0 + h.val; omega
    | ⟨3, _⟩ => by show w.val = 0 + w.val; omega)]
  unfold nbrLeft
  by_cases hw : w.val = 0
  · rw [dif_pos hw]
    exact pad_apply_of_not_inside _ _ _ u v hp hu _ 3 (by
      show ¬(1 ≤ w.val ∧ (w.val - 1) % (0 + 1) = 0 ∧ (w.val - 1) / (0 + 1) < 64); omega)
  · rw [dif_neg hw]
    exact pad_apply_of_inside _ _ _ u v hp hu _ (ix4 b c h ⟨w.val - 1, by omega⟩) (fun a => match a with
      | ⟨0, _⟩ => by show b.val = 0 + b.val * (0 + 1); omega
      | ⟨1, _⟩ => by show c.val = 0 + c.val * (0 + 1); omega
      | ⟨2, _⟩ => by show h.val = 0 + h.val * (0 + 1); omega
      | ⟨3, _⟩ => by show w.val = 1 + (w.val - 1) * (0 + 1); omega)

/-- One column of `v` padded after every plane, then columns 1 … 64 cut out: the neighbour to the right. -/
theorem padRight_apply (u : S32x128x64x64.Idx → α) (v : S_.Idx → α)
    (hp : S32x128x64x64.Pads (![0, 0, 0, 0] : Fin 4 → Nat) ![0, 0, 0, 1] ![0, 0, 0, 0] S32x128x64x65) (hu : 0 < S_.numel)
    (hs : S32x128x64x65.Slices ![0, 0, 0, 1] S32x128x64x64) (b : Fin 32) (c : Fin 128) (h w : Fin 64) :
    extractStridedSlice S32x128x64x64 ![0, 0, 0, 1] (pad S32x128x64x65 ![0, 0, 0, 0] ![0, 0, 0, 1] ![0, 0, 0, 0] u v hp hu) hs (ix4 b c h w)
      = nbrRight (fun h' w' => u (ix4 b c h' w')) (v (Shape.Idx.first hu)) h w := by
  rw [extractStridedSlice_apply ![0, 0, 0, 1] _ hs (ix4 b c h w) (ix4 b c h (⟨1 + w.val, by have := w.isLt; omega⟩ : Fin 65)) (fun a => match a with
    | ⟨0, _⟩ => by show b.val = 0 + b.val; omega
    | ⟨1, _⟩ => by show c.val = 0 + c.val; omega
    | ⟨2, _⟩ => by show h.val = 0 + h.val; omega
    | ⟨3, _⟩ => by show 1 + w.val = 1 + w.val; rfl)]
  unfold nbrRight
  by_cases hw : w.val = 63
  · rw [dif_pos hw]
    exact pad_apply_of_not_inside _ _ _ u v hp hu _ 3 (by
      show ¬(0 ≤ 1 + w.val ∧ (1 + w.val - 0) % (0 + 1) = 0 ∧ (1 + w.val - 0) / (0 + 1) < 64); omega)
  · rw [dif_neg hw]
    exact pad_apply_of_inside _ _ _ u v hp hu _ (ix4 b c h ⟨w.val + 1, by have := w.isLt; omega⟩) (fun a => match a with
      | ⟨0, _⟩ => by show b.val = 0 + b.val * (0 + 1); omega
      | ⟨1, _⟩ => by show c.val = 0 + c.val * (0 + 1); omega
      | ⟨2, _⟩ => by show h.val = 0 + h.val * (0 + 1); omega
      | ⟨3, _⟩ => by show 1 + w.val = 0 + (w.val + 1) * (0 + 1); omega)

end Pads

/-! ## The reference's stages -/

variable (X : (⟨S32x128x64x64, .f32⟩ : BufTy).Contents (Elt Ideal)) (A : (⟨S1x128x64x64, .f32⟩ : BufTy).Contents (Elt Ideal))

/-- Where the parameter, copied along the 32 images, is read. -/
theorem param_idx (b : Fin 32) (c : Fin 128) (h w : Fin 64) : idx_main_v0 (ix4 b c h w) = ix4 (0 : Fin 1) c h w :=
  funext fun a => match a with | ⟨0, _⟩ => rfl | ⟨1, _⟩ => rfl | ⟨2, _⟩ => rfl | ⟨3, _⟩ => rfl

/-- The reference's array of gated factors, entry by entry. -/
theorem factor_apply (b : Fin 32) (c : Fin 128) (h w : Fin 64) :
    val_main_v13 (F := Ideal) X A (ix4 b c h w) = plane X A b c h w := by
  simp only [val_main_v13_apply, val_main_v10_apply, val_main_v12_apply, val_main_v7_apply, val_main_v9_apply,
    val_main_v3_apply, val_main_v6_apply, val_main_v2_apply, val_main_v5_apply, val_main_v0_apply, val_main_v1_apply,
    val_main_v4_apply, val_main_v8_apply, val_main_v11_apply, val_main_cst_apply, val_main_cst_0_apply,
    val_main_cst_1_apply, val_main_cst_2_apply, param_idx]
  rfl

/-- The array of factors as a family of planes. -/
theorem planes_eq (b : Fin 32) (c : Fin 128) :
    (fun h' w' => val_main_v13 (F := Ideal) X A (ix4 b c h' w')) = plane X A b c :=
  funext fun h' => funext fun w' => factor_apply X A b c h' w'

theorem up_apply (b : Fin 32) (c : Fin 128) (h w : Fin 64) :
    val_main_v15 (F := Ideal) X A (ix4 b c h w) = nbrUp (plane X A b c) oneW h w :=
  (padUp_apply (val_main_v13 (F := Ideal) X A) (val_main_call0_v0 (F := Ideal)) _ _ _ b c h w).trans (by rw [planes_eq]; rfl)

theorem left_apply (b : Fin 32) (c : Fin 128) (h w : Fin 64) :
    val_main_v17 (F := Ideal) X A (ix4 b c h w) = nbrLeft (plane X A b c) oneW h w :=
  (padLeft_apply (val_main_v13 (F := Ideal) X A) (val_main_call1_v0 (F := Ideal)) _ _ _ b c h w).trans (by rw [planes_eq]; rfl)

theorem right_apply (b : Fin 32) (c : Fin 128) (h w : Fin 64) :
    val_main_v19 (F := Ideal) X A (ix4 b c h w) = nbrRight (plane X A b c) oneW h w :=
  (padRight_apply (val_main_v13 (F := Ideal) X A) (val_main_call2_v0 (F := Ideal)) _ _ _ b c h w).trans (by rw [planes_eq]; rfl)

theorem down_apply (b : Fin 32) (c : Fin 128) (h w : Fin 64) :
    val_main_v21 (F := Ideal) X A (ix4 b c h w) = nbrDown (plane X A b c) oneW h w :=
  (padDown_apply (val_main_v13 (F := Ideal) X A) (val_main_call3_v0 (F := Ideal)) _ _ _ b c h w).trans (by rw [planes_eq]; rfl)

/-- The reference's result is the specification's array. -/
theorem reference_eq : val_main_v26 (F := Ideal) X A = result X A := by
  funext i
  obtain ⟨b, c, h, w, rfl⟩ : ∃ (b : Fin 32) (c : Fin 128) (h w : Fin 64), i = ix4 b c h w := ⟨i 0, i 1, i 2, i 3, eq_ix4 i⟩
  rw [result_apply, val_main_v26_apply, val_main_v25_apply, val_main_v24_apply, val_main_v23_apply, val_main_v22_apply,
    up_apply, left_apply, right_apply, down_apply, factor_apply]
  rfl

end Cert.ReferenceIdeal.RefValue

end
-- ==== Proof.KernelArray.lean ====
/-
  From blocks to the whole array.

  The grid has 4 × 8 points.  Point (p, q) is handed images 8p … 8p+7 and channels 16q … 16q+15 of the input, channels
  16q … 16q+15 of the parameter, and writes back the same images and channels of the output; rows and columns are never
  cut.  A plane therefore lies whole inside one block, its neighbours with it, so what the point writes back is the
  specification's array read through the block.  The 32 blocks tile the output, so the output ends as that array.
-/
import proofs.«148106_j48936857371170_1_alg».proof.Proof.Gen.KernelIdeal.Value
import proofs.«148106_j48936857371170_1_alg».proof.Proof.BlockReading
import proofs.«148106_j48936857371170_1_alg».proof.Proof.StencilSpec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.Stencil
open Idealize.ShloMosaic.Pipeline (Dat)

/-! ## One block against the array, over plain variables -/

/-- If a block of the input holds images 8p … and channels 16q … of an array X, and the parameter block channels 16q … of A,
    then the block's result at (b, k, h, w) is the specification's array at (8p + b, 16q + k, h, w). -/
theorem block_eq (X : S32x128x64x64.Idx → Ideal .f32) (A : S1x128x64x64.Idx → Ideal .f32)
    (x0 : Vec Ideal S8x16x64x64 .f32) (x1 : Vec Ideal S1x16x64x64 .f32) (p q : Nat)
    (hp : ∀ b : Fin 8, p * 8 + b.val < 32) (hq : ∀ k : Fin 16, q * 16 + k.val < 128)
    (h0 : ∀ (b : Fin 8) (k : Fin 16) (h w : Fin 64), x0 (ix4 b k h w) = X (ix4 (⟨p * 8 + b.val, hp b⟩ : Fin 32) (⟨q * 16 + k.val, hq k⟩ : Fin 128) h w))
    (h1 : ∀ (k : Fin 16) (h w : Fin 64), x1 (ix4 (0 : Fin 1) k h w) = A (ix4 (0 : Fin 1) (⟨q * 16 + k.val, hq k⟩ : Fin 128) h w))
    (b : Fin 8) (k : Fin 16) (h w : Fin 64) :
    blockResult x0 x1 (ix4 b k h w) = result X A (ix4 (⟨p * 8 + b.val, hp b⟩ : Fin 32) (⟨q * 16 + k.val, hq k⟩ : Fin 128) h w) := by
  have hplane : blockPlane x0 x1 b k = plane X A ⟨p * 8 + b.val, hp b⟩ ⟨q * 16 + k.val, hq k⟩ :=
    funext fun h' => funext fun w' => by unfold blockPlane plane; rw [h0, h1]
  rw [result_apply, ← hplane, ← h0]
  rfl

/-! ## The grid -/

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The printed index maps over the 32 points: the input's block moves with the output's, the parameter's follows the
    channel block only, rows and columns are never cut, and the block numbers stay in range. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = 0 ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 7 :=
  (by decide +kernel : ∀ t : Fin grid0.N, _)

/-- Every block of the output is some point's. -/
theorem index_onto : ∀ (p : Fin 4) (q : Fin 8), ∃ t : Fin cfg0.N, win0_2.index t = ![p.val, q.val, 0, 0] :=
  (by decide +kernel : ∀ (p : Fin 4) (q : Fin 8), ∃ t : Fin grid0.N, win0_2.index t = ![p.val, q.val, 0, 0])

/-- What point t writes back is block t of the specification's array of the arguments. -/
theorem flushed_eq (c : Dev nD) (t : Fin cfg0.N) :
    (dats m 0 c).flushed 2 t = ((cfg0.win 2).blk t).view.read (Elt Ideal) (result (V m c main_arg0) (V m c main_arg1)) := by
  rw [flushed2]
  unfold out0_2
  rw [View.canon_unit_zero zero_offsets]
  simp only [View.ld_unit_zero (S := S8x16x64x64) zero_offsets, View.ld_unit_zero (S := S1x16x64x64) zero_offsets]
  rw [payload_eq]
  obtain ⟨e00, e01, e02, e03, e10, e11, e12, e13, e22, e23, l0, l1⟩ := index_facts t
  funext j
  obtain ⟨b, k, h, w, rfl⟩ : ∃ (b : Fin 8) (k : Fin 16) (h w : Fin 64), j = ix4 b k h w := ⟨j 0, j 1, j 2, j 3, eq_ix4 j⟩
  show blockResult (iblk m c 0 t) (iblk m c 1 t) (ix4 b k h w)
    = result (V m c main_arg0) (V m c main_arg1) (((cfg0.win 2).blk t).view.emb (ix4 b k h w))
  have hp : ∀ b : Fin 8, win0_2.index t (0 : Fin 4) * 8 + b.val < 32 := fun b => by have := b.isLt; omega
  have hq : ∀ k : Fin 16, win0_2.index t (1 : Fin 4) * 16 + k.val < 128 := fun k => by have := k.isLt; omega
  have hout : ((cfg0.win 2).blk t).view.emb (ix4 b k h w)
      = ix4 (⟨win0_2.index t (0 : Fin 4) * 8 + b.val, hp b⟩ : Fin 32) (⟨win0_2.index t (1 : Fin 4) * 16 + k.val, hq k⟩ : Fin 128) h w := by
    funext a; apply Fin.ext
    match a with
    | ⟨0, _⟩ => show win0_2.index t (0 : Fin 4) * 8 + 1 * b.val = win0_2.index t (0 : Fin 4) * 8 + b.val; omega
    | ⟨1, _⟩ => show win0_2.index t (1 : Fin 4) * 16 + 1 * k.val = win0_2.index t (1 : Fin 4) * 16 + k.val; omega
    | ⟨2, _⟩ => show win0_2.index t (2 : Fin 4) * 64 + 1 * h.val = h.val; omega
    | ⟨3, _⟩ => show win0_2.index t (3 : Fin 4) * 64 + 1 * w.val = w.val; omega
  rw [hout]
  refine block_eq (V m c main_arg0) (V m c main_arg1) (iblk m c 0 t) (iblk m c 1 t) (win0_2.index t (0 : Fin 4))
    (win0_2.index t (1 : Fin 4)) hp hq ?_ ?_ b k h w
  · intro b k h w
    show V m c main_arg0 (((cfg0.win 0).blk t).view.emb (ix4 b k h w)) = _
    refine congrArg (V m c main_arg0) (funext fun a => Fin.ext ?_)
    match a with
    | ⟨0, _⟩ => show win0_0.index t (0 : Fin 4) * 8 + 1 * b.val = win0_2.index t (0 : Fin 4) * 8 + b.val; omega
    | ⟨1, _⟩ => show win0_0.index t (1 : Fin 4) * 16 + 1 * k.val = win0_2.index t (1 : Fin 4) * 16 + k.val; omega
    | ⟨2, _⟩ => show win0_0.index t (2 : Fin 4) * 64 + 1 * h.val = h.val; omega
    | ⟨3, _⟩ => show win0_0.index t (3 : Fin 4) * 64 + 1 * w.val = w.val; omega
  · intro k h w
    show V m c main_arg1 (((cfg0.win 1).blk t).view.emb (ix4 (0 : Fin 1) k h w)) = _
    refine congrArg (V m c main_arg1) (funext fun a => Fin.ext ?_)
    match a with
    | ⟨0, _⟩ => show win0_1.index t (0 : Fin 4) * 1 + 1 * 0 = 0; omega
    | ⟨1, _⟩ => show win0_1.index t (1 : Fin 4) * 16 + 1 * k.val = win0_2.index t (1 : Fin 4) * 16 + k.val; omega
    | ⟨2, _⟩ => show win0_1.index t (2 : Fin 4) * 64 + 1 * h.val = h.val; omega
    | ⟨3, _⟩ => show win0_1.index t (3 : Fin 4) * 64 + 1 * w.val = w.val; omega

/-- An index of the output is in point t's block iff each coordinate is in the block's range on its axis. -/
theorem mem_blk (t : Fin cfg0.N) (i : S32x128x64x64.Idx) :
    i ∈ ((cfg0.win 2).blk t).view.set ↔ ∀ a : Fin 4, win0_2.index t a * S8x16x64x64.size a ≤ (i a).val
      ∧ (i a).val < win0_2.index t a * S8x16x64x64.size a + S8x16x64x64.size a := by
  show i ∈ ((View.whole main_v0).slice (win0_2.rect t)).set ↔ _
  rw [View.set_slice_whole, Rect.mem_set_unit]
  exact Iff.rfl

/-- The blocks tile the output: index (n, ch, h, w) lies in the block of point (n / 8, ch / 16). -/
theorem covered (i : S32x128x64x64.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 64 := (i 2).isLt
  have hi3 : (i 3).val < 64 := (i 3).isLt
  obtain ⟨t, ht⟩ := index_onto ⟨(i 0).val / 8, by omega⟩ ⟨(i 1).val / 16, by omega⟩
  have q0 : win0_2.index t (0 : Fin 4) = (i 0).val / 8 := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 16 ≤ (i 1).val ∧ (i 1).val < win0_2.index t (1 : Fin 4) * 16 + 16; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- The output array after the run is the specification's array of the arguments. -/
theorem final (c : Dev nD) :
    (dats m 0 c).arrAt 2 cfg0.N = result (m ((c : Thread nD τ).loc main_arg0)) (m ((c : Thread nD τ).loc main_arg1)) :=
  (dats m 0 c).arrAt_eq_of_cover 2 (result (V m c main_arg0) (V m c main_arg1)) (fun t _ => flushed_eq m c t) covered

/-- The kernel's run: the output ends as the specification's array, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.lean ====
/-
  A 3×3 cross stencil of gated factors: the kernel against its array-level reference, over the extended reals.

  For every entry x of the input (32 images, 128 channels, 64×64 planes) and the parameter entry a at the same channel,
  row and column, let  u = (g·p + (1 − g))·(1 − a)  with g = [a > 0.01] and p = [x > 0].  Both programs return, at
  every index,   ((((up · left) · u) · right) · down) · x,   where up, left, right and down are the values of u one step
  away in the same plane, and 1 where that step leaves the plane.

  The kernel gets the neighbours by rolling a block of whole planes by 1 and by 63 along the rows and along the columns
  and overwriting the wrapped row or column with 1; the reference pads the whole array with a row or column of 1 and cuts
  the original extent back out.  Entry by entry these are the same four values (Proof/BlockReading.lean for a block,
  Proof/ReferenceReading.lean for the reference), both programs multiply the six factors in the same order, and the
  blocks tile the output (Proof/KernelArray.lean).  So both end at the one array Proof/StencilSpec.lean names; no law of
  arithmetic is used, and the inputs' finiteness is never needed.  The kernel's text was not rewritten for the idealised
  reading, so there is nothing to preserve beyond the reading itself.
-/
import proofs.«148106_j48936857371170_1_alg».proof.Defs
import proofs.«148106_j48936857371170_1_alg».proof.Proof.Gen.Kernel
import proofs.«148106_j48936857371170_1_alg».proof.Proof.Gen.Kernel.Skeleton
import proofs.«148106_j48936857371170_1_alg».proof.Proof.Gen.Kernel.Launch
import proofs.«148106_j48936857371170_1_alg».proof.Proof.Gen.Kernel.Points
import proofs.«148106_j48936857371170_1_alg».proof.Proof.Gen.Kernel.Frame
import proofs.«148106_j48936857371170_1_alg».proof.Proof.Gen.KernelIdeal
import proofs.«148106_j48936857371170_1_alg».proof.Proof.Gen.KernelIdeal.Skeleton
import proofs.«148106_j48936857371170_1_alg».proof.Proof.Gen.KernelIdeal.Launch
import proofs.«148106_j48936857371170_1_alg».proof.Proof.Gen.KernelIdeal.Points
import proofs.«148106_j48936857371170_1_alg».proof.Proof.Gen.KernelIdeal.Frame
import proofs.«148106_j48936857371170_1_alg».proof.Proof.Gen.ReferenceIdeal
import proofs.«148106_j48936857371170_1_alg».proof.Proof.Gen.Pre_finite_inputs
import proofs.«148106_j48936857371170_1_alg».proof.Proof.Gen.KernelIdeal.Value
import proofs.«148106_j48936857371170_1_alg».proof.Proof.Gen.ReferenceIdeal.Run
import proofs.«148106_j48936857371170_1_alg».proof.Proof.Gen.ReferenceIdeal.Read
import proofs.«148106_j48936857371170_1_alg».proof.Proof.StencilSpec
import proofs.«148106_j48936857371170_1_alg».proof.Proof.BlockReading
import proofs.«148106_j48936857371170_1_alg».proof.Proof.ReferenceReading
import proofs.«148106_j48936857371170_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealised reading. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the two arguments, end with the specification's array of them. -/
theorem algebraic : Cert.algebraic_KernelIdeal_ReferenceIdeal := by
  intro m ρ m' ρ' _ hagree
  refine ⟨fun c => Cert.Stencil.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
